-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S1024x4096 : Shape := ⟨2, ![1024, 4096]⟩
abbrev S1x1024 : Shape := ⟨2, ![1, 1024]⟩
abbrev S256x1024 : Shape := ⟨2, ![256, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1024x4096, .f32⟩
  | .local _ .vmem, ⟨3, _⟩ => ⟨S1024x4096, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S1024x4096_S1024x4096_0_0 : ∀ a, (![0, 0] : Fin 2 → Nat) a + S1024x4096.size a ≤ S1024x4096.size a
  h_S1024x4096 : 0 < S1024x4096.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .f32 = 32 ∨ (Rect.block (s := S4096x4096) S1024x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x4096.size a
  hwx0_3 : ∀ i : grid0.Coords, EltTy.bits .f32 = 32 ∨ (Rect.block (s := S8192x4096) S256x1024.size (cc0_transform_3 i) (hinb0_3 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The binarized linear layer as ONE function of its three argument arrays, on the extended reals.

  For an input `x` of 8192 rows by 4096 features, a weight `w` of 4096 output units by 4096 features and a
  bias `b` of 4096 entries, entry (n, o) of the result is

      Σ_{k < 4096} x[n, k] · s(w[o, k])  +  b[o],        s(v) = 1 if 0 ≤ v, else -1.

  Two facts about ONE element join the two programs to this function. The kernel selects ±1 directly on the
  comparison `w ≥ 0`. The reference first clamps the weight to [-1, 1] and compares the clamped value with
  zero: clamping moves no value across zero — `0 ≤ min 1 (max (-1) v)` exactly when `0 ≤ v`, because `0 ≤ 1`
  and `¬ 0 ≤ -1` — so it selects the same sign. Both facts hold at EVERY extended real, the infinities
  included: the order on the extended reals is linear, and nothing is cancelled or distributed, so no
  finiteness of the weight is used.
-/
import Idealize.ShloMosaic.PureOps.Ideal
import Idealize.ShloMosaic.PureOps.Ideal.Laws
import Idealize.ShloMosaic.Lib.ValueIdx

noncomputable section

namespace Cert.BinaryLinear

open Idealize.ShloMosaic Idealize.ShloMosaic.ValueIdx

/-- The binarized weight: `1` where the weight is at least zero, `-1` below. -/
def sgn (v : EReal) : EReal := if 0 ≤ v then 1 else -1

/-- One entry of the layer: row `n` of the input against the signs of row `o` of the weight, plus the bias at `o`. -/
def entry (x : (⟨2, ![8192, 4096]⟩ : Shape).Idx → EReal) (w : (⟨2, ![4096, 4096]⟩ : Shape).Idx → EReal)
    (b : (⟨1, ![4096]⟩ : Shape).Idx → EReal) (n : Fin 8192) (o : Fin 4096) : EReal :=
  (∑ k : Fin 4096, x (ix2 n k) * sgn (w (ix2 o k))) + b (ix1 o)

/-- The whole result array, index by index. -/
def linear (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => entry x w b (i 0) (i 1)

theorem linear_apply (x : (⟨2, ![8192, 4096]⟩ : Shape).Idx → EReal) (w : (⟨2, ![4096, 4096]⟩ : Shape).Idx → EReal)
    (b : (⟨1, ![4096]⟩ : Shape).Idx → EReal) (n : Fin 8192) (o : Fin 4096) :
    linear x w b (ix2 n o) = entry x w b n o := rfl

/-- Minus one is below zero on the extended reals. -/
theorem not_zero_le_neg_one : ¬ (0 : EReal) ≤ -1 :=
  not_le.mpr (by rw [show (-1 : EReal) = ((-1 : ℝ) : EReal) from rfl]; exact EReal.coe_neg'.mpr (by norm_num))

/-- Clamping to [-1, 1] moves no value across zero. -/
theorem zero_le_clamp_iff (v : EReal) : 0 ≤ min 1 (max (-1) v) ↔ 0 ≤ v := by
  rw [le_min_iff, le_max_iff]
  constructor
  · rintro ⟨_, h | h⟩
    · exact absurd h not_zero_le_neg_one
    · exact h
  · exact fun h => ⟨zero_le_one, Or.inr h⟩

/-- The comparison `v ≥ 0` as a one-bit word selects between two values as the order does. -/
theorem select_cmp_oge (v z a b : EReal) (hz : z = 0) :
    Scalar.select (Ideal.cmp .oge v z) a b = if 0 ≤ v then a else b := by
  subst hz
  unfold Ideal.cmp Scalar.select
  by_cases h : (0 : EReal) ≤ v <;> simp [h]

/-- THE KERNEL'S ELEMENT: the select of the bf16 patterns of `1.0` and `-1.0` on `v ≥ 0.0` is the sign. -/
theorem sgn_of_compare (v : Ideal .f32) :
    Scalar.select (FloatOps.cmpf .oge v (Scalar.ofBits .f32 0x00000000#32))
        (Scalar.ofBits (F := Ideal) .bf16 0x3F80#16) (Scalar.ofBits (F := Ideal) .bf16 0xBF80#16) = sgn v := by
  show Scalar.select (Ideal.cmp .oge v (Ideal.ofBits .f32 0x00000000#32))
      (Ideal.ofBits .bf16 0x3F80#16) (Ideal.ofBits .bf16 0xBF80#16) = sgn v
  rw [select_cmp_oge v _ _ _ Ideal.ofBits_zero_f32,
    show Ideal.ofBits .bf16 0x3F80#16 = 1 from IdealRules.sign_bit.ideal_onePat .bf16,
    show Ideal.ofBits .bf16 0xBF80#16 = -1 from IdealRules.sign_bit.ideal_negOnePat .bf16]
  rfl

/-- THE REFERENCE'S ELEMENT: the weight clamped to [-1.0, 1.0], compared with `0.0`, selecting the f32
    patterns of `1.0` and `-1.0`, is the same sign. -/
theorem sgn_of_clamped_compare (v : Ideal .f32) :
    Scalar.select
        (FloatOps.cmpf .oge
          (FloatOps.minimumf (FloatOps.ofBits (F := Ideal) .f32 0x3F800000#32)
            (FloatOps.maximumf (FloatOps.ofBits (F := Ideal) .f32 0xBF800000#32) v))
          (FloatOps.ofBits (F := Ideal) .f32 0x00000000#32))
        (FloatOps.ofBits (F := Ideal) .f32 0x3F800000#32) (FloatOps.ofBits (F := Ideal) .f32 0xBF800000#32) = sgn v := by
  have h1 : Ideal.ofBits .f32 0x3F800000#32 = 1 := IdealRules.sign_bit.ideal_onePat .f32
  have hm : Ideal.ofBits .f32 0xBF800000#32 = -1 := IdealRules.sign_bit.ideal_negOnePat .f32
  show Scalar.select (Ideal.cmp .oge (min (Ideal.ofBits .f32 0x3F800000#32) (max (Ideal.ofBits .f32 0xBF800000#32) v))
      (Ideal.ofBits .f32 0x00000000#32)) (Ideal.ofBits .f32 0x3F800000#32) (Ideal.ofBits .f32 0xBF800000#32) = sgn v
  rw [select_cmp_oge _ _ _ _ Ideal.ofBits_zero_f32, h1, hm]
  unfold sgn
  exact if_congr (zero_le_clamp_iff v) rfl rfl

end Cert.BinaryLinear

end
-- ==== Proof.RefLinear.lean ====
/-
  The reference computes the binarized linear layer.

  Its program clamps the weight to [-1, 1], compares the clamped weight with zero, selects 1 or -1, contracts
  the input's feature axis against the selected signs' feature axis, and adds the bias broadcast over the rows.
  Read one entry at a time: entry (n, o) of the contraction is the sum over the feature k of `x[n, k]` times the
  selected sign at (o, k); the selected sign at an index is the sign of the weight there, because clamping
  moves no value across zero; the broadcast bias at (n, o) is `b[o]`. So the result is `linear x w b`.
-/
import proofs.«165989_j44057774522911_2_alg».proof.Proof.Gen.ReferenceIdeal.Read
import proofs.«165989_j44057774522911_2_alg».proof.Proof.Spec

noncomputable section

namespace Cert.ReferenceIdeal.IsLinear

open Cert.ReferenceIdeal Cert.ReferenceIdeal.Read Cert.BinaryLinear
open Idealize.ShloMosaic Idealize.ShloMosaic.ValueIdx

/-- The input's index the contraction reads for entry (n, o) at feature `k`: row `n`, column `k`. -/
theorem input_index (n : Fin 8192) (o : Fin 4096) (k : Fin 4096) : lidx_main_v5 (ix2 n o) k = ix2 n k :=
  funext fun a => Fin.ext (by match a with | ⟨0, _⟩ => rfl | ⟨1, _⟩ => rfl)

/-- The weight's index it reads: output unit `o`, column `k`. -/
theorem weight_index (n : Fin 8192) (o : Fin 4096) (k : Fin 4096) : ridx_main_v5 (ix2 n o) k = ix2 o k :=
  funext fun a => Fin.ext (by match a with | ⟨0, _⟩ => rfl | ⟨1, _⟩ => rfl)

/-- The bias entry the two broadcasts put at (n, o): the one of output unit `o`. -/
theorem bias_index (n : Fin 8192) (o : Fin 4096) : idx_main_v6 (idx_main_v7 (ix2 n o)) = ix1 o :=
  funext fun a => Fin.ext (by match a with | ⟨0, _⟩ => rfl)

/-- What the contraction multiplies the input by, at an index of the weight: the weight's sign. -/
theorem selected_sign (w : (⟨S4096x4096, .f32⟩ : BufTy).Contents (Elt Ideal)) (j : S4096x4096.Idx) :
    val_main_v4 (F := Ideal) w j = sgn (w j) := by
  simp only [val_main_v4_apply, val_main_v3_apply, val_main_v2_apply, val_main_v0_apply, val_main_call0_v2_apply,
    val_main_call0_v4_apply, val_main_call0_v3_apply, val_main_cst_0_apply, val_main_call0_v1_apply,
    val_main_call0_v0_apply, val_main_cst_apply, val_main_v1_apply, val_main_cst_1_apply, val_main_call1_v0_apply,
    val_main_cst_2_apply, val_main_call1_v1_apply, val_main_cst_3_apply]
  exact sgn_of_clamped_compare (w j)

/-- THE REFERENCE'S RESULT, as a function of its three arguments, is the binarized linear layer. -/
theorem result_eq (x : (⟨S8192x4096, .f32⟩ : BufTy).Contents (Elt Ideal)) (w : (⟨S4096x4096, .f32⟩ : BufTy).Contents (Elt Ideal))
    (b : (⟨S4096, .f32⟩ : BufTy).Contents (Elt Ideal)) :
    val_main_v8 (F := Ideal) x w b = linear x w b := by
  funext i
  obtain ⟨n, o, rfl⟩ : ∃ (n : Fin 8192) (o : Fin 4096), i = ix2 n o := ⟨i 0, i 1, eq_ix2 i⟩
  rw [val_main_v8_apply, val_main_v5_apply, val_main_v7_apply, val_main_v6_apply, bias_index, linear_apply]
  show (∑ k : Fin 4096, x (lidx_main_v5 (ix2 n o) k) * val_main_v4 (F := Ideal) w (ridx_main_v5 (ix2 n o) k)) + b (ix1 o)
    = (∑ k : Fin 4096, x (ix2 n k) * sgn (w (ix2 o k))) + b (ix1 o)
  refine congrArg (· + b (ix1 o)) (Finset.sum_congr rfl fun k _ => ?_)
  rw [input_index, weight_index]
  exact congrArg (x (ix2 n k) * ·) (selected_sign w (ix2 o k))

end Cert.ReferenceIdeal.IsLinear

end
-- ==== Proof.BlockEntry.lean ====
/-
  What the kernel's body stores, one entry at a time.

  At a grid point the body holds a block of 256 rows of the input (all 4096 features), a block of 1024 rows of
  the weight (all 4096 features) and the matching 1024 entries of the bias as one row. It selects 1 or -1 on
  `w ≥ 0` over the weight block, narrows the input block (no change of value on the extended reals), contracts
  the two blocks' feature axes into a zero accumulator, and adds the bias row broadcast over the 256 rows.

  So entry (p, q) of the stored 256 × 1024 block is the sum over the feature k of `xblock[p, k]` times the sign
  of `wblock[q, k]`, plus `bias_row[0, q]`: the contraction into zero is the plain sum of products (the
  accumulator contributes `0 + …`), its operand indices at (p, q) and k are (p, k) and (q, k) because both
  operands contract their second axis, and the selected value at an index is the sign of the weight there.
-/
import proofs.«165989_j44057774522911_2_alg».proof.Proof.Gen.KernelIdeal.Skeleton
import proofs.«165989_j44057774522911_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Cert.BinaryLinear
open Idealize.ShloMosaic Idealize.ShloMosaic.ValueIdx

/-- The selected signs of a weight block: the body's select of the patterns of `1.0` and `-1.0` on `w ≥ 0.0`. -/
def signs (x1 : Vec Ideal S1024x4096 .f32) : FVec Ideal S1024x4096 .bf16 :=
  select (cmpf (F := Ideal) .oge x1 (broadcast S1024x4096 (Scalar.ofBits (F := Ideal) .f32 0x00000000#32)))
    (broadcast S1024x4096 (Scalar.ofBits (F := Ideal) .bf16 0x3F80#16))
    (broadcast S1024x4096 (Scalar.ofBits (F := Ideal) .bf16 0xBF80#16))

/-- At an index it is the sign of the weight there. -/
theorem signs_apply (x1 : Vec Ideal S1024x4096 .f32) (j : S1024x4096.Idx) : signs x1 j = sgn (x1 j) :=
  sgn_of_compare (x1 j)

/-- The stored value is the contraction of the narrowed input block with the selected signs, into zero, plus the
    bias row broadcast over the rows: the body's operations in order. -/
theorem stored_eq (x0 : Vec Ideal S256x4096 .f32) (x1 : Vec Ideal S1024x4096 .f32) (x2 : Vec Ideal S1x1024 .f32) :
    k0_pay1 (F := Ideal) x0 x1 x2
      = addf (F := Ideal) (matmul (F := Ideal) dot_S256x4096_S1024x4096_S256x1024_1_1_0_0_n_n none (truncf (F := Ideal) .bf16 x0 Facts₀.bitsLt_bf16_f32) (signs x1)
            (constant (F := Ideal) S256x1024 .f32 0x00000000#32))
          (broadcastTo S256x1024 (shapeCast S1x1024 x2 Facts₀.shapeCasts_S1x1024_S1x1024) Facts₀.broadcasts_S1x1024_S256x1024) := rfl

/-! ## The contraction's operand indices: both operands contract their second axis -/

theorem lhs_row (i : S256x1024.Idx) (r : dot_S256x4096_S1024x4096_S256x1024_1_1_0_0_n_n.contr.Idx) : (dot_S256x4096_S1024x4096_S256x1024_1_1_0_0_n_n.lhsIdx i r 0).val = (i 0).val := by
  unfold DotDims.lhsIdx
  rw [dif_neg (show ¬(0 : Fin S256x4096.rank) ∈ dot_S256x4096_S1024x4096_S256x1024_1_1_0_0_n_n.lhsBatch by decide),
    dif_pos (show (0 : Fin S256x4096.rank) ∈ dot_S256x4096_S1024x4096_S256x1024_1_1_0_0_n_n.lhsNonContracting by decide)]
  rfl
theorem lhs_col (i : S256x1024.Idx) (r : dot_S256x4096_S1024x4096_S256x1024_1_1_0_0_n_n.contr.Idx) : (dot_S256x4096_S1024x4096_S256x1024_1_1_0_0_n_n.lhsIdx i r 1).val = (r ⟨0, by decide⟩).val :=
  dot_S256x4096_S1024x4096_S256x1024_1_1_0_0_n_n.lhsIdx_val_of_single rfl i r
theorem rhs_row (i : S256x1024.Idx) (r : dot_S256x4096_S1024x4096_S256x1024_1_1_0_0_n_n.contr.Idx) : (dot_S256x4096_S1024x4096_S256x1024_1_1_0_0_n_n.rhsIdx i r 0).val = (i 1).val := by
  unfold DotDims.rhsIdx
  rw [dif_neg (show ¬(0 : Fin S1024x4096.rank) ∈ dot_S256x4096_S1024x4096_S256x1024_1_1_0_0_n_n.rhsBatch by decide),
    dif_pos (show (0 : Fin S1024x4096.rank) ∈ dot_S256x4096_S1024x4096_S256x1024_1_1_0_0_n_n.rhsNonContracting by decide)]
  rfl
theorem rhs_col (i : S256x1024.Idx) (r : dot_S256x4096_S1024x4096_S256x1024_1_1_0_0_n_n.contr.Idx) : (dot_S256x4096_S1024x4096_S256x1024_1_1_0_0_n_n.rhsIdx i r 1).val = (r ⟨0, by decide⟩).val :=
  dot_S256x4096_S1024x4096_S256x1024_1_1_0_0_n_n.rhsIdx_val_of_single rfl i r

/-- The contraction into zero at entry (p, q): the sum over the feature `k` of the left operand at (p, k) times the
    right operand at (q, k). -/
theorem product_entry (a : FVec Ideal S256x4096 .bf16) (s : FVec Ideal S1024x4096 .bf16) (p : Fin 256) (q : Fin 1024) :
    matmul (F := Ideal) dot_S256x4096_S1024x4096_S256x1024_1_1_0_0_n_n none a s (constant (F := Ideal) S256x1024 .f32 0x00000000#32) (ix2 p q)
      = ∑ k : Fin 4096, a (ix2 p k) * s (ix2 q k) := by
  refine (Ideal.matmul_constant_zero_apply dot_S256x4096_S1024x4096_S256x1024_1_1_0_0_n_n none a s (ix2 p q)).trans ?_
  rw [← Equiv.sum_comp (contrEquiv1 dot_S256x4096_S1024x4096_S256x1024_1_1_0_0_n_n 4096 rfl rfl).symm]
  refine Finset.sum_congr rfl fun k _ => ?_
  have hk := contrEquiv1_symm_val dot_S256x4096_S1024x4096_S256x1024_1_1_0_0_n_n 4096 rfl rfl k
  have el : dot_S256x4096_S1024x4096_S256x1024_1_1_0_0_n_n.lhsIdx (ix2 p q) ((contrEquiv1 dot_S256x4096_S1024x4096_S256x1024_1_1_0_0_n_n 4096 rfl rfl).symm k) = ix2 p k :=
    funext fun ax => Fin.ext (by
      match ax with
      | ⟨0, _⟩ => exact lhs_row _ _
      | ⟨1, _⟩ => exact (lhs_col _ _).trans hk)
  have er : dot_S256x4096_S1024x4096_S256x1024_1_1_0_0_n_n.rhsIdx (ix2 p q) ((contrEquiv1 dot_S256x4096_S1024x4096_S256x1024_1_1_0_0_n_n 4096 rfl rfl).symm k) = ix2 q k :=
    funext fun ax => Fin.ext (by
      match ax with
      | ⟨0, _⟩ => exact rhs_row _ _
      | ⟨1, _⟩ => exact (rhs_col _ _).trans hk)
  rw [el, er]

/-- ENTRY (p, q) OF THE STORED BLOCK: the input block's row `p` against the signs of the weight block's row `q`,
    plus the bias row's entry `q`. -/
theorem stored_entry (x0 : Vec Ideal S256x4096 .f32) (x1 : Vec Ideal S1024x4096 .f32) (x2 : Vec Ideal S1x1024 .f32)
    (p : Fin 256) (q : Fin 1024) :
    k0_pay1 (F := Ideal) x0 x1 x2 (ix2 p q)
      = (∑ k : Fin 4096, x0 (ix2 p k) * sgn (x1 (ix2 q k))) + x2 (ix2 (0 : Fin 1) q) := by
  rw [stored_eq]
  show matmul (F := Ideal) dot_S256x4096_S1024x4096_S256x1024_1_1_0_0_n_n none (truncf (F := Ideal) .bf16 x0 Facts₀.bitsLt_bf16_f32) (signs x1)
        (constant (F := Ideal) S256x1024 .f32 0x00000000#32) (ix2 p q)
      + broadcastTo S256x1024 (shapeCast S1x1024 x2 Facts₀.shapeCasts_S1x1024_S1x1024) Facts₀.broadcasts_S1x1024_S256x1024 (ix2 p q) = _
  rw [product_entry, broadcastTo_1b_ab_apply, shapeCast_self]
  refine congrArg (· + x2 (ix2 (0 : Fin 1) q)) (Finset.sum_congr rfl fun k _ => ?_)
  rw [signs_apply]
  rfl

end Cert.KernelIdeal.Block

end
-- ==== Proof.WholeArray.lean ====
/-
  From the blocks to the whole result array.

  The grid has 4 × 32 points; at point (j, i) the kernel reads rows 256·i … 256·i + 255 of the input, rows
  1024·j … 1024·j + 1023 of the weight and entries 1024·j … 1024·j + 1023 of the bias (kept as ONE row, the
  reshape of the bias the host did before the launch), and writes the 256 × 1024 block (i, j) of the result.

  Entry (p, q) of what a point stores is the input block's row p against the signs of the weight block's row q,
  plus the bias row's entry q (the body, read one entry at a time). Row p of input block i is row 256·i + p of
  the input; row q of weight block j is row 1024·j + q of the weight; entry q of bias piece j is entry 1024·j + q
  of the bias. So the stored block IS block (i, j) of the binarized linear layer of the three arguments.
  The 32 × 4 blocks tile the 8192 × 4096 result — entry (r, s) lies in block (r / 256, s / 1024) — and every
  point writes its block back, so after the run the result array is that layer, whole.
-/
import proofs.«165989_j44057774522911_2_alg».proof.Proof.Gen.KernelIdeal.Value
import proofs.«165989_j44057774522911_2_alg».proof.Proof.BlockEntry
import Idealize.ShloMosaic.Lib.Pipeline.Value
import Idealize.ShloMosaic.Lib.ValueLayout
import Idealize.ShloMosaic.Lib.StableHlo.Run

noncomputable section

namespace Cert.KernelIdeal.Whole

open Cert.KernelIdeal Cert.KernelIdeal.Gen Cert.KernelIdeal.Block Cert.BinaryLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The layer of the three arguments as launched, on core `c`. -/
abbrev layer (c : Dev nD) : S8192x4096.Idx → EReal :=
  linear (m ((c : Thread nD τ).loc main_arg0)) (m ((c : Thread nD τ).loc main_arg1)) (m ((c : Thread nD τ).loc main_arg2))

/-- THE BIAS AS THE REGION FINDS IT: the one host operation before the launch reshaped the 4096 entries to one row. -/
theorem bias_row (c : Dev nD) :
    (V m c main_v0 : S1x4096.Idx → EReal)
      = shapeCast S1x4096 (m ((c : Thread nD τ).loc main_arg2)) Facts₀.shapeCasts_S4096_S1x4096 := by
  dsimp only [Gen.V, Gen.hostOps0]; after_results; rfl

/-- The printed index maps, decided over the 128 grid points: the input's row block and the weight's row block are the
    result block's two coordinates, the bias piece is the result block's column coordinate, every other block
    coordinate is zero, and the result's block coordinates stay below 32 and 4. -/
theorem index_maps : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 31 ∧ win0_3.index t (1 : Fin 2) ≤ 3 :=
  (by decide +kernel : ∀ t : Fin grid0.N, _)

/-- Every one of the 32 × 4 result blocks is some point's. -/
theorem every_block : ∀ (q0 : Fin 32) (q1 : Fin 4), ∃ t : Fin cfg0.N, win0_3.index t = ![q0.val, q1.val] :=
  (by decide +kernel : ∀ (q0 : Fin 32) (q1 : Fin 4), ∃ t : Fin grid0.N, win0_3.index t = ![q0.val, q1.val])

/-- WHAT POINT `t` WRITES BACK is block `t` of the layer of the arguments. -/
theorem flushed_eq (c : Dev nD) (t : Fin cfg0.N) :
    (dats m 0 c).flushed 3 t = ((cfg0.win 3).blk t).view.read (Elt Ideal) (layer m c) := by
  rw [Cert.KernelIdeal.Value.flushed3]
  unfold out0_3
  rw [View.canon_unit_zero zero_offsets]
  simp only [View.ld_unit_zero (S := S256x4096) zero_offsets, View.ld_unit_zero (S := S1024x4096) zero_offsets,
    View.ld_unit_zero (S := S1x1024) zero_offsets]
  obtain ⟨e0, e1, e2, e3, e4, e5, e6, e7⟩ := index_maps t
  funext j
  obtain ⟨p, q, rfl⟩ : ∃ (p : Fin 256) (q : Fin 1024), j = ix2 p q := ⟨j 0, j 1, eq_ix2 j⟩
  have hp : p.val < 256 := p.isLt
  have hq : q.val < 1024 := q.isLt
  -- the entry's row and column in the whole result
  let n : Fin 8192 := ⟨win0_3.index t (0 : Fin 2) * 256 + p.val, by omega⟩
  let o : Fin 4096 := ⟨win0_3.index t (1 : Fin 2) * 1024 + q.val, by omega⟩
  have h0 : ∀ k : Fin 4096, ((cfg0.win 0).blk t).view.emb (ix2 p k) = (ix2 n k : S8192x4096.Idx) := fun k => by
    funext a; apply Fin.ext
    match a with
    | ⟨0, _⟩ => show win0_0.index t (0 : Fin 2) * 256 + 1 * p.val = win0_3.index t (0 : Fin 2) * 256 + p.val; omega
    | ⟨1, _⟩ => show win0_0.index t (1 : Fin 2) * 4096 + 1 * k.val = k.val; omega
  have h1 : ∀ k : Fin 4096, ((cfg0.win 1).blk t).view.emb (ix2 q k) = (ix2 o k : S4096x4096.Idx) := fun k => by
    funext a; apply Fin.ext
    match a with
    | ⟨0, _⟩ => show win0_1.index t (0 : Fin 2) * 1024 + 1 * q.val = win0_3.index t (1 : Fin 2) * 1024 + q.val; omega
    | ⟨1, _⟩ => show win0_1.index t (1 : Fin 2) * 4096 + 1 * k.val = k.val; omega
  have h2 : ((cfg0.win 2).blk t).view.emb (ix2 (0 : Fin 1) q) = (ix2 (0 : Fin 1) o : S1x4096.Idx) := by
    funext a; apply Fin.ext
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + q.val; omega
  have h3 : ((cfg0.win 3).blk t).view.emb (ix2 p q) = (ix2 n o : S8192x4096.Idx) := by
    funext a; apply Fin.ext
    match a with
    | ⟨0, _⟩ => show win0_3.index t (0 : Fin 2) * 256 + 1 * p.val = win0_3.index t (0 : Fin 2) * 256 + p.val; omega
    | ⟨1, _⟩ => show win0_3.index t (1 : Fin 2) * 1024 + 1 * q.val = win0_3.index t (1 : Fin 2) * 1024 + q.val; omega
  -- each block read, as an entry of the argument it was cut from
  have hx : ∀ k : Fin 4096, (iblk m c 0 t : Vec Ideal S256x4096 .f32) (ix2 p k)
      = (m ((c : Thread nD τ).loc main_arg0) : Vec Ideal S8192x4096 .f32) (ix2 n k) := fun k => by
    show V m c main_arg0 (((cfg0.win 0).blk t).view.emb (ix2 p k)) = _
    rw [V_main_arg0, h0 k]
  have hw : ∀ k : Fin 4096, (iblk m c 1 t : Vec Ideal S1024x4096 .f32) (ix2 q k)
      = (m ((c : Thread nD τ).loc main_arg1) : Vec Ideal S4096x4096 .f32) (ix2 o k) := fun k => by
    show V m c main_arg1 (((cfg0.win 1).blk t).view.emb (ix2 q k)) = _
    rw [V_main_arg1, h1 k]
  have hb : (iblk m c 2 t : Vec Ideal S1x1024 .f32) (ix2 (0 : Fin 1) q)
      = (m ((c : Thread nD τ).loc main_arg2) : Vec Ideal S4096 .f32) (ix1 o) := by
    show (V m c main_v0 : S1x4096.Idx → EReal) (((cfg0.win 2).blk t).view.emb (ix2 (0 : Fin 1) q)) = _
    rw [h2, bias_row, shapeCast_a_1a_apply]
  -- the result's entry the block's entry (p, q) is written to
  have hr : ((cfg0.win 3).blk t).view.read (Elt Ideal) (layer m c) (ix2 p q)
      = entry (m ((c : Thread nD τ).loc main_arg0)) (m ((c : Thread nD τ).loc main_arg1))
          (m ((c : Thread nD τ).loc main_arg2)) n o := by
    show layer m c (((cfg0.win 3).blk t).view.emb (ix2 p q)) = _
    exact (congrArg (layer m c) h3).trans (linear_apply _ _ _ n o)
  refine ((stored_entry (iblk m c 0 t) (iblk m c 1 t) (iblk m c 2 t) p q).trans ?_).trans hr.symm
  unfold entry
  exact congrArg₂ (fun a b : EReal => a + b)
    (Finset.sum_congr rfl fun k _ => congrArg₂ (fun a b : EReal => a * sgn b) (hx k) (hw k)) hb

/-- An index of the result is in point `t`'s block iff each coordinate is in the block's range on its axis. -/
theorem mem_block (t : Fin cfg0.N) (i : S8192x4096.Idx) :
    i ∈ ((cfg0.win 3).blk t).view.set ↔ ∀ a : Fin 2, win0_3.index t a * S256x1024.size a ≤ (i a).val
      ∧ (i a).val < win0_3.index t a * S256x1024.size a + S256x1024.size a := by
  show i ∈ ((View.whole main_v1).slice (win0_3.rect t)).set ↔ _
  rw [View.set_slice_whole, Rect.mem_set_unit]
  exact Iff.rfl

/-- THE BLOCKS TILE THE RESULT: entry (r, s) is in the block of the point with block coordinates (r / 256, s / 1024),
    and that point writes its block back. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := every_block ⟨(i 0).val / 256, by omega⟩ ⟨(i 1).val / 1024, by omega⟩
  have q0 : win0_3.index t (0 : Fin 2) = (i 0).val / 256 := congrFun ht 0
  have q1 : win0_3.index t (1 : Fin 2) = (i 1).val / 1024 := congrFun ht 1
  refine ⟨t, flush0_3 t, ?_⟩
  rw [mem_block]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 1024 ≤ (i 1).val ∧ (i 1).val < win0_3.index t (1 : Fin 2) * 1024 + 1024
    omega

/-- THE RESULT ARRAY after the run is the layer of the arguments. -/
theorem final (c : Dev nD) : (dats m 0 c).arrAt 3 cfg0.N = layer m c :=
  (dats m 0 c).arrAt_eq_of_cover 3 (layer m c) (fun t _ => flushed_eq m c t) covered

/-- THE KERNEL'S RUN, READ: every weakly fair execution terminates with the result array at the layer of the
    arguments and the arguments unchanged. -/
theorem run : θ_run defs (onTc (τ := τ) (main (F := Ideal))) ⟨m, fun _ => 0, ρ⟩ fun r => ∀ c : Dev nD,
      r.2.mem ((c : Thread nD τ).loc main_v1) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Whole

end
-- ==== Proof.lean ====
/-
  A linear layer with binarized weights: the kernel and its reference compute the same extended reals.

  Both programs take an input `x` (8192 × 4096), a weight `w` (4096 × 4096) and a bias `b` (4096), and produce

      out[n, o] = Σ_{k < 4096} x[n, k] · s(w[o, k]) + b[o],        s(v) = 1 if 0 ≤ v, else -1.

  The kernel tiles the result into 32 × 4 blocks of 256 × 1024; at each grid point it selects ±1 on `w ≥ 0` over
  1024 rows of the weight, contracts 256 rows of the input with them over the whole feature axis into a zero
  accumulator, and adds the matching piece of the bias. The reference clamps the weight to [-1, 1] first, then
  compares with zero and selects ±1, contracts the whole arrays, and adds the bias broadcast over the rows.

  Why they agree, on every extended real: clamping to [-1, 1] moves no value across zero, so the two selected
  signs are the same (Proof/Spec.lean); a change of float format is the identity; a contraction into a zero
  accumulator and the host's contraction are the same sum of the same products in the same order of factors
  (Proof/BlockEntry.lean, Proof/RefLinear.lean); and row p of input block i, row q of weight block j and entry q of
  bias piece j are row 256·i + p, row 1024·j + q and entry 1024·j + q of the arguments, the blocks tiling the
  result (Proof/WholeArray.lean). Only a regrouping of which entries are computed together separates the two
  programs — no term is cancelled, distributed or moved across a sum — so the inputs' finiteness is not used.

  The three frames: the two kernel programs run, fault-free, leaving their arguments unchanged, by the generated
  frame certificates; the reference's frame is its generated run with the result dropped. The ideal pass rewrote
  no operation of the kernel, so there is nothing to preserve.
-/
import proofs.«165989_j44057774522911_2_alg».proof.Defs
import proofs.«165989_j44057774522911_2_alg».proof.Proof.Gen.Kernel
import proofs.«165989_j44057774522911_2_alg».proof.Proof.Gen.Kernel.Frame
import proofs.«165989_j44057774522911_2_alg».proof.Proof.Gen.KernelIdeal
import proofs.«165989_j44057774522911_2_alg».proof.Proof.Gen.KernelIdeal.Frame
import proofs.«165989_j44057774522911_2_alg».proof.Proof.Gen.KernelIdeal.Value
import proofs.«165989_j44057774522911_2_alg».proof.Proof.Gen.ReferenceIdeal
import proofs.«165989_j44057774522911_2_alg».proof.Proof.Gen.ReferenceIdeal.Run
import proofs.«165989_j44057774522911_2_alg».proof.Proof.Gen.ReferenceIdeal.Read
import proofs.«165989_j44057774522911_2_alg».proof.Proof.Gen.Pre_finite_inputs
import proofs.«165989_j44057774522911_2_alg».proof.Proof.Spec
import proofs.«165989_j44057774522911_2_alg».proof.Proof.RefLinear
import proofs.«165989_j44057774522911_2_alg».proof.Proof.WholeArray
import Idealize.ShloMosaic.Adequacy
import Idealize.ShloMosaic.Init

noncomputable section

namespace Cert.Proof

open Idealize.ShloMosaic Idealize.ShloMosaic.TcCoe Idealize.SL.Sem

/-- The kernel as printed runs, nothing faulting, and leaves its three arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories agreeing on the three arguments, the kernel's result array ends at the binarized linear layer of
    its arguments (the blocks, tiled) and the reference's at its composed term of its own, which is the same
    layer of the same arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v8_eq _ _ _).trans ?_
  rw [Cert.ReferenceIdeal.IsLinear.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
